-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : FVec F S65536x1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S65536x1000 .f32 := Host.absf main_arg1
  let main_cst_0 : FVec F S_ .f32 := constant S_ .f32 0x7F800000#32
  let main_v5 : FVec F S65536x1000 .f32 := broadcastInDim S65536x1000 ![] bcast_S_S65536x1000 main_cst_0
  let main_v6 : IVec S65536x1000 1 := cmpf .olt main_v4 main_v5
  let main_c_1 : IVec S_ 1 := constantI S_ 1 1#1
  let main_v7 : IVec S_ 1 := (fun x v => Host.reduce IntOp.andi x v reducesTo_S65536x1000_S_d0_1 h_S_) main_v6 main_c_1
  let main_v8 : IVec S_ 1 := andi main_v3 main_v7
  main_v8
-- ==== Kernel.lean ====
abbrev S65536x1000 : Shape := ⟨2, ![65536, 1000]⟩
abbrev S65536000 : Shape := ⟨1, ![65536000]⟩
abbrev S64000x1024 : Shape := ⟨2, ![64000, 1024]⟩
abbrev S2x1x1 : Shape := ⟨3, ![2, 1, 1]⟩
abbrev S2000x1024 : Shape := ⟨2, ![2000, 1024]⟩
abbrev S1x1x1 : Shape := ⟨3, ![1, 1, 1]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S65536000, .f32⟩
  | .hbm, ⟨3, _⟩ => ⟨S65536000, .f32⟩
  | .hbm, ⟨4, _⟩ => ⟨S64000x1024, .f32⟩
  | .hbm, ⟨5, _⟩ => ⟨S64000x1024, .f32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2000x1024, .f32⟩
  | .local _ .vmem, ⟨1, _⟩ => ⟨S2000x1024, .f32⟩
  | .local _ .vmem, ⟨2, _⟩ => ⟨S2000x1024, .f32⟩
  | .local _ .vmem, ⟨3, _⟩ => ⟨S2000x1024, .f32⟩
  | .local _ .vmem, ⟨4, _⟩ => ⟨S1x1x1, .f32⟩
  | .local _ .vmem, ⟨5, _⟩ => ⟨S1x1x1, .f32⟩
  | .local _ .vmem, ⟨6, _⟩ => ⟨S1x1024, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536x1000_S65536000 : S65536x1000.ShapeCasts S65536000
  shapeCasts_S65536000_S64000x1024 : S65536000.ShapeCasts S64000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  reduces_S2000x1024_S1024 : S2000x1024.Reduces [0] S1024
  shapeCasts_S1024_S1x1024 : S1024.ShapeCasts S1x1024
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S64000x1024.size a
  hwx0_0 : ∀ i : grid0.Coords, EltTy.bits .f32 = 32 ∨ (Rect.block (s := S64000x1024) S2000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S64000x1024.size a
  hwx0_1 : ∀ i : grid0.Coords, EltTy.bits .f32 = 32 ∨ (Rect.block (s := S64000x1024) S2000x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v2) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x1000 : Shape := ⟨2, ![65536, 1000]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S_, .f32⟩
  | .hbm, ⟨3, _⟩ => ⟨S65536x1000, .f32⟩
  | .hbm, ⟨4, _⟩ => ⟨S65536x1000, .f32⟩
  | .hbm, ⟨5, _⟩ => ⟨S_, .f32⟩
  | .hbm, ⟨6, _⟩ => ⟨S65536x1000, .f32⟩
  | .hbm, ⟨7, _⟩ => ⟨S65536x1000, .f32⟩
  | .hbm, ⟨8, _⟩ => ⟨S_, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536x1000, .f32⟩
  | .hbm, ⟨13, _⟩ => ⟨S65536x1000, .f32⟩
  | .hbm, ⟨14, _⟩ => ⟨S65536x1000, .f32⟩
  | .hbm, ⟨15, _⟩ => ⟨S65536x1000, .f32⟩
  | .hbm, ⟨16, _⟩ => ⟨S_, .f32⟩
  | .hbm, ⟨17, _⟩ => ⟨S65536x1000, .f32⟩
  | .hbm, ⟨18, _⟩ => ⟨S65536x1000, .f32⟩
  | .hbm, ⟨19, _⟩ => ⟨S65536x1000, .f32⟩
  | .hbm, ⟨20, _⟩ => ⟨S_, .f32⟩
  | .hbm, ⟨21, _⟩ => ⟨S65536x1000, .f32⟩
  | .hbm, ⟨22, _⟩ => ⟨S65536x1000, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts₀]

class Facts : Prop extends Facts₀ where

variable [Facts]
-- ==== Proof.Pieces.lean ====
/-
  What one run of the kernel body leaves behind, as values of the blocks it was given.

  The body keeps a one-row accumulator of 1024 lanes. At the first step of a half it stores the zero row, reads it
  back, and stores "that row plus this block's column sums"; at every later step it stores "what the step before left
  plus this block's column sums"; at the last step of a half it then reads the accumulator once more and stores the
  sum of its 1024 lanes into the one-element output block. Each of these stores overwrites its whole buffer, so what a
  buffer holds afterwards is the value stored last, whatever it held before.
-/
import proofs.«111214_j24773371364064_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem offsets2 : (![0, 0] : Fin 2 → Nat) = fun _ => 0 := funext fun a => by fin_cases a <;> rfl
theorem offsets3 : (![0, 0, 0] : Fin 3 → Nat) = fun _ => 0 := funext fun a => by fin_cases a <;> rfl

/-- A first step of a half leaves in the accumulator: the zero row plus the block's column sums. -/
theorem acc_first (c : Dev nD) (i : grid0.Coords) (a2 : Memref sig .tc .vmem S2000x1024 .f32) (h2 : a2.IsWhole)
    (a3 : Memref sig .tc .vmem S2000x1024 .f32) (h3 : a3.IsWhole) (a4 : Memref sig .tc .vmem S1x1x1 .f32) (h4 : a4.IsWhole)
    (a5 : Memref sig .tc .vmem S1x1024 .f32) (h5 : a5.IsWhole) (hc0 : cond0_0 i) (hc1 : ¬cond0_1 i)
    (x0 x1 : Vec F S2000x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1024) offsets2, View.readCov_unit_zero (S := S1x1024) _ offsets2]
  simp only [View.readAt_eq_ld, h2.read_unread, h3.read_unread, View.ld_unit_zero (S := S2000x1024) offsets2]

/-- A middle step leaves in the accumulator: what it found there plus the block's column sums. -/
theorem acc_middle (c : Dev nD) (i : grid0.Coords) (a2 : Memref sig .tc .vmem S2000x1024 .f32) (h2 : a2.IsWhole)
    (a3 : Memref sig .tc .vmem S2000x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : ¬cond0_1 i)
    (x0 x1 : Vec F S2000x1024 .f32) (xs : Vec F S1x1024 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1x1024) offsets2]
  simp only [View.readAt_eq_ld, h2.read_unread, h3.read_unread, h5.read_unread,
    View.ld_unit_zero (S := S2000x1024) offsets2, View.ld_unit_zero (S := S1x1024) offsets2]

/-- A last step of a half leaves the same in the accumulator … -/
theorem acc_last (c : Dev nD) (i : grid0.Coords) (a2 : Memref sig .tc .vmem S2000x1024 .f32) (h2 : a2.IsWhole)
    (a3 : Memref sig .tc .vmem S2000x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : cond0_1 i)
    (x0 x1 : Vec F S2000x1024 .f32) (xs : Vec F S1x1024 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1x1024) offsets2]
  simp only [View.readAt_eq_ld, h2.read_unread, h3.read_unread, h5.read_unread,
    View.ld_unit_zero (S := S2000x1024) offsets2, View.ld_unit_zero (S := S1x1024) offsets2]

/-- … and in the output block the sum of that accumulator's lanes. -/
theorem out_last (c : Dev nD) (i : grid0.Coords) (a2 : Memref sig .tc .vmem S2000x1024 .f32) (h2 : a2.IsWhole)
    (a3 : Memref sig .tc .vmem S2000x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : cond0_1 i)
    (x0 x1 : Vec F S2000x1024 .f32) (xs : Vec F S1x1024 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1x1) offsets3, View.readCov_unit_zero (S := S1x1024) _ offsets2]
  simp only [View.readAt_eq_ld, h2.read_unread, h3.read_unread, h5.read_unread,
    View.ld_unit_zero (S := S2000x1024) offsets2, View.ld_unit_zero (S := S1x1024) offsets2]

end Cert.KernelIdeal.Pieces

end
-- ==== Proof.Scalars.lean ====
/-
  One element of the loss, as the kernel computes it and as the reference computes it, on the extended reals.

  For a pair of entries x (of the prediction) and y (of the target) the kernel's term is 1 − exp(a · (x − y)²) with the
  float constant a = −0.004 (as f32), and the reference's is 1 − exp(b · (2(x − ½) − 2(y − ½))²) with the float constant
  b = −0.001 (as f32). The two f32 words have the same significand 8589935 and exponents two apart:
  a = −8589935 / 2³¹ and b = −8589935 / 2³³, so a = 4b EXACTLY, roundings included. For real x and y,
  2(x − ½) − 2(y − ½) = 2(x − y), its square is 4(x − y)², and b · 4(x − y)² = a · (x − y)²: the two terms are equal.
  (Real x and y are needed: at an infinite entry the differences are not the real ones and distributivity fails.)
-/
import Idealize.ShloMosaic.PureOps.Ideal

noncomputable section

namespace Cert.Corr

open Idealize.ShloMosaic

/-- The kernel's term at a pair of entries. -/
def termK (x y : EReal) : EReal :=
  Ideal.ofBits .f32 0x3F800000#32 - Ideal.exp (Ideal.ofBits .f32 0xBB83126F#32 * ((x - y) * (x - y)))

/-- The reference's term at a pair of entries. -/
def termR (x y : EReal) : EReal :=
  Ideal.ofBits .f32 0x3F800000#32 - Ideal.exp (Ideal.ofBits .f32 0xBA83126F#32 *
    (((x - Ideal.ofBits .f32 0x3F000000#32) * Ideal.ofBits .f32 0x40000000#32
        - (y - Ideal.ofBits .f32 0x3F000000#32) * Ideal.ofBits .f32 0x40000000#32)
      * ((x - Ideal.ofBits .f32 0x3F000000#32) * Ideal.ofBits .f32 0x40000000#32
        - (y - Ideal.ofBits .f32 0x3F000000#32) * Ideal.ofBits .f32 0x40000000#32)))

/-- The f32 word of 0.5 is the real ½. -/
theorem word_half : Ideal.ofBits .f32 0x3F000000#32 = ((1 / 2 : ℝ) : EReal) := by
  simp [Ideal.ofBits, Ideal.ieee, -EReal.coe_mul]; norm_num

/-- The f32 word of 2.0 is the real 2. -/
theorem word_two : Ideal.ofBits .f32 0x40000000#32 = ((2 : ℝ) : EReal) := by
  simp [Ideal.ofBits, Ideal.ieee, -EReal.coe_mul]; norm_num

/-- The reference's scale, the f32 nearest −0.001, is −8589935 / 2³³. -/
theorem word_scaleR : Ideal.ofBits .f32 0xBA83126F#32 = ((-8589935 / 8589934592 : ℝ) : EReal) := by
  simp [Ideal.ofBits, Ideal.ieee, -EReal.coe_mul]; norm_num

/-- The kernel's scale, the f32 nearest −0.004, is −8589935 / 2³¹: four times the reference's. -/
theorem word_scaleK : Ideal.ofBits .f32 0xBB83126F#32 = ((-8589935 / 2147483648 : ℝ) : EReal) := by
  simp [Ideal.ofBits, Ideal.ieee, -EReal.coe_mul]; norm_num

/-- At real entries the kernel's term is the reference's. -/
theorem termK_eq_termR (x y : ℝ) : termK (x : EReal) (y : EReal) = termR (x : EReal) (y : EReal) := by
  unfold termK termR
  rw [word_half, word_two, word_scaleR, word_scaleK]
  simp only [← EReal.coe_sub, ← EReal.coe_mul]
  refine congrArg (fun t : ℝ => Ideal.ofBits .f32 0x3F800000#32 - Ideal.exp (t : EReal)) ?_
  ring

end Cert.Corr

end
-- ==== Proof.Payload.lean ====
/-
  The body's three stored values, read at one element on the extended reals.

  The zero row is 0 at every lane. The accumulator's new row is, at lane l, the old row's entry at l plus the sum over
  the block's 2000 rows r of the loss term of the two blocks' entries at (r, l): the subtraction, the square, the
  scaling, the exponential and the difference from one are taken entry by entry, and the reduction over the row axis
  from zero is the plain sum of its column. The output block's one entry is the sum of the accumulator's 1024 lanes: a
  1×1024 row recast as 1×1×1024 keeps its entries in order, and a reduction over the last two axes into one element adds
  every entry.
-/
import proofs.«111214_j24773371364064_2_alg».proof.Proof.Gen.KernelIdeal.Skeleton
import proofs.«111214_j24773371364064_2_alg».proof.Proof.Scalars
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Corr

/-- The zero row holds 0 at every lane. -/
theorem zero_row (j : S1x1024.Idx) : k0_pay1 (F := Ideal) j = 0 := by
  unfold k0_pay1
  refine (congrFun (shapeCast_self _ _) j).trans ?_
  exact Ideal.ofBits_zero_f32

/-- A sum over the row axis of a 2000 × 1024 vector, from zero, at lane l: the column's sum. -/
theorem column_sum (v : FVec Ideal S2000x1024 .f32) (h : Shape.Reduces S2000x1024 [0] S1024)
    (hφ : FKind.Formats .f32) (hacc : (0x00000000#32 : BitVec 32) = FKind.add.neutral .f32 hφ) (l : Fin 1024) :
    multiReduction .add [0] S1024 v 0x00000000#32 h hφ hacc (ix1 l) = ∑ r : Fin 2000, v (ix2 r l) := by
  refine (Ideal.multiReduction_add_single v _ h hφ hacc (ix1 l)).trans ?_
  refine Finset.sum_congr rfl fun r _ => congrArg v (funext fun c => Fin.ext ?_)
  match c with
  | ⟨0, _⟩ => rfl
  | ⟨1, _⟩ => rfl

/-- The accumulator's new row at lane l: the old entry plus the block's column of loss terms. -/
theorem step_row (x0 x1 : Vec Ideal S2000x1024 .f32) (acc : Vec Ideal S1x1024 .f32) (l : Fin 1024) :
    k0_pay2 x0 x1 acc (ix2 (0 : Fin 1) l)
      = acc (ix2 (0 : Fin 1) l) + ∑ r : Fin 2000, termK (x0 (ix2 r l)) (x1 (ix2 r l)) := by
  unfold k0_pay2
  dsimp only
  refine (congrFun (shapeCast_self _ _) _).trans ?_
  show acc (ix2 (0 : Fin 1) l) + shapeCast S1x1024 _ shapeCasts_S1024_S1x1024 (ix2 (0 : Fin 1) l) = _
  refine congrArg (acc (ix2 (0 : Fin 1) l) + ·) ?_
  refine (shapeCast_apply _ shapeCasts_S1024_S1x1024 (ix2 (0 : Fin 1) l) (ix1 l) ?_).trans ?_
  · rw [Shape.rowMajor_val_one, Shape.rowMajor_val_two]
    show l.val = 0 * 1024 + l.val
    omega
  refine (column_sum _ reduces_S2000x1024_S1024 _ _ l).trans ?_
  refine Finset.sum_congr rfl fun r _ => ?_
  rw [shapeCast_self, shapeCast_self]
  rfl

/-- The lanes of a 1 × 1 × 1024 index set are its last coordinates. -/
def lanes : S1x1x1024.Idx ≃ Fin 1024 where
  toFun i := i 2
  invFun l := ix3 (0 : Fin 1) (0 : Fin 1) l
  left_inv i := by
    funext a
    match a with
    | ⟨0, _⟩ => exact Subsingleton.elim (α := Fin 1) _ _
    | ⟨1, _⟩ => exact Subsingleton.elim (α := Fin 1) _ _
    | ⟨2, _⟩ => rfl
  right_inv _ := rfl

/-- The output block's entry: the sum of the accumulator's lanes. -/
theorem lane_total (acc : Vec Ideal S1x1024 .f32) (j : S1x1x1.Idx) :
    k0_pay3 acc j = ∑ l : Fin 1024, acc (ix2 (0 : Fin 1) l) := by
  unfold k0_pay3
  dsimp only
  show extractAt ![0, 0, 0] (shapeCast S1x1x1 _ shapeCasts_S1_S1x1x1) inpos_S1x1x1_p0_0_0 = _
  unfold extractAt
  refine (shapeCast_apply _ shapeCasts_S1_S1x1x1 _ (ix1 (0 : Fin 1)) ?_).trans ?_
  · rw [Shape.rowMajor_val_one, Shape.rowMajor_val_three]
    rfl
  refine (Ideal.multiReduction_add_total _ _ reduces_S1x1x1024_S1 (fun b => by
    match b with | ⟨0, _⟩ => rfl) _ _ (ix1 (0 : Fin 1))).trans ?_
  rw [← Equiv.sum_comp lanes.symm]
  refine Finset.sum_congr rfl fun l _ => ?_
  refine shapeCast_apply acc shapeCasts_S1x1024_S1x1x1024 _ (ix2 (0 : Fin 1) l) ?_
  rw [Shape.rowMajor_val_two, Shape.rowMajor_val_three]
  show 0 * 1024 + l.val = (0 * 1 + 0) * 1024 + l.val
  omega

end Cert.KernelIdeal.Payload

end
-- ==== Proof.LibBlockSums.lean ====
/-
  A sum over consecutive rows, cut into blocks.

  The rows 0 … A·B − 1 are A consecutive blocks of B rows, row a·B + b being row b of block a; a sum over the rows is the
  sum over the blocks of the sums over each block's rows, and so is a sum restricted to the rows that satisfy a
  predicate (the rows of one class): it is the sum over the blocks of the sums over each block's rows of the class.
  The same from a base row on, and for a stretch of rows cut in two. These are the regroupings behind "every worker
  sums its own rows, the partial sums are added up": no order or grouping is left in a sum of a commutative monoid.
-/
import Idealize.ShloMosaic.PureOps.Ideal

open scoped BigOperators

namespace Cert.LibBlockSums

variable {M : Type*} [AddCommMonoid M]

/-- A·B consecutive rows as A blocks of B. -/
theorem sum_range_mul (A B : ℕ) (f : ℕ → M) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- The rows of a class among A·B consecutive rows, block by block. -/
theorem sum_filter_range_mul (A B : ℕ) (p : ℕ → Prop) [DecidablePred p] (f : ℕ → M) :
    ∑ n ∈ (Finset.range (A * B)).filter p, f n
      = ∑ a ∈ Finset.range A, ∑ b ∈ (Finset.range B).filter (fun b => p (a * B + b)), f (a * B + b) := by
  rw [Finset.sum_filter, sum_range_mul]
  refine Finset.sum_congr rfl fun a _ => ?_
  rw [Finset.sum_filter]

/-- The same for the rows base … base + A·B − 1. -/
theorem sum_filter_range_mul_from (base A B : ℕ) (p : ℕ → Prop) [DecidablePred p] (f : ℕ → M) :
    ∑ n ∈ (Finset.range (A * B)).filter (fun n => p (base + n)), f (base + n)
      = ∑ a ∈ Finset.range A, ∑ b ∈ (Finset.range B).filter (fun b => p (base + (a * B + b))), f (base + (a * B + b)) :=
  sum_filter_range_mul A B (fun n => p (base + n)) (fun n => f (base + n))

/-- A stretch of rows cut in two: the first N₁ rows and the N₂ rows after them. -/
theorem sum_filter_range_add (N₁ N₂ : ℕ) (p : ℕ → Prop) [DecidablePred p] (f : ℕ → M) :
    ∑ n ∈ (Finset.range (N₁ + N₂)).filter p, f n
      = ∑ n ∈ (Finset.range N₁).filter p, f n + ∑ n ∈ (Finset.range N₂).filter (fun n => p (N₁ + n)), f (N₁ + n) := by
  rw [Finset.sum_filter, Finset.sum_range_add, Finset.sum_filter, Finset.sum_filter]

/-- A sum over the rows of a class as a sum over all rows of the row's term or zero: the form an accumulating scatter
    reads at one element. -/
theorem sum_filter_eq_sum_ite (N : ℕ) (p : ℕ → Prop) [DecidablePred p] (f : ℕ → M) :
    ∑ n ∈ (Finset.range N).filter p, f n = ∑ n ∈ Finset.range N, (if p n then f n else 0) :=
  Finset.sum_filter _ _

/-- A sum over `Fin N` is the sum over the first N natural numbers of any extension of the summand. -/
theorem sum_fin_eq_sum_range (N : ℕ) (f : ℕ → M) : ∑ n : Fin N, f n.val = ∑ n ∈ Finset.range N, f n :=
  Fin.sum_univ_eq_sum_range f N

end Cert.LibBlockSums
-- ==== Proof.Regroup.lean ====
/-
  The 65,536,000 entries in one row, and the order in which the kernel adds them.

  Both arrays have 65536 rows of 1000 entries; read row after row they are one sequence of 65,536,000 entries, entry n
  being entry n mod 1000 of row n div 1000 (`flat`). The kernel re-lays that sequence as 64000 rows of 1024 lanes, cuts
  the rows into 32 blocks of 2000 consecutive rows, and gives blocks 0–15 to one half and 16–31 to the other. For a
  function g of the position in the sequence, the column sum of block t at lane l adds g over the block's 2000 rows at
  that lane (`colsum`); after step n a half's accumulator holds, at lane l, the column sums of the blocks of its half up
  to block n (`accAfter`); a half's partial result adds the accumulator's lanes after its last block (`partialOf`).
  Addition on the extended reals is commutative and associative, so the two partial results together are the sum of g
  over the whole sequence (`partials_total`), which is also the sum over all (row, entry) pairs of the original layout
  (`sum_all_eq_flat`).
-/
import Idealize.ShloMosaic.Lib.ValueIdx
import proofs.«111214_j24773371364064_2_alg».proof.Proof.LibBlockSums

noncomputable section

open scoped BigOperators

namespace Cert.Corr

open Idealize.ShloMosaic Idealize.ShloMosaic.ValueIdx

/-- Entry n of a 65536 × 1000 array read row after row. -/
def flat (X : (⟨2, ![65536, 1000]⟩ : Shape).Idx → EReal) (n : ℕ) : EReal :=
  X (ix2 (⟨n / 1000 % 65536, Nat.mod_lt _ (by norm_num)⟩ : Fin 65536) (⟨n % 1000, Nat.mod_lt _ (by norm_num)⟩ : Fin 1000))

/-- Entry b of row a is entry 1000a + b of the sequence. -/
theorem flat_at (X : (⟨2, ![65536, 1000]⟩ : Shape).Idx → EReal) (a : Fin 65536) (b : Fin 1000) :
    X (ix2 a b) = flat X (a.val * 1000 + b.val) := by
  have ha := a.isLt
  have hb := b.isLt
  unfold flat
  have e0 : (⟨(a.val * 1000 + b.val) / 1000 % 65536, Nat.mod_lt _ (by norm_num)⟩ : Fin 65536) = a := Fin.ext (by
    show (a.val * 1000 + b.val) / 1000 % 65536 = a.val; omega)
  have e1 : (⟨(a.val * 1000 + b.val) % 1000, Nat.mod_lt _ (by norm_num)⟩ : Fin 1000) = b := Fin.ext (by
    show (a.val * 1000 + b.val) % 1000 = b.val; omega)
  rw [e0, e1]

/-- A sum over every (row, entry) pair of a function of the two arrays' entries is the sum over the sequence. -/
theorem sum_all_eq_flat (X Y : (⟨2, ![65536, 1000]⟩ : Shape).Idx → EReal) (f : EReal → EReal → EReal) :
    ∑ j : (⟨2, ![65536, 1000]⟩ : Shape).Idx, f (X j) (Y j) = ∑ n ∈ Finset.range 65536000, f (flat X n) (flat Y n) := by
  rw [sum_idx2, show (65536000 : ℕ) = 65536 * 1000 from rfl,
    LibBlockSums.sum_range_mul 65536 1000 (fun n => f (flat X n) (flat Y n)),
    ← LibBlockSums.sum_fin_eq_sum_range 65536 (fun a => ∑ b ∈ Finset.range 1000, f (flat X (a * 1000 + b)) (flat Y (a * 1000 + b)))]
  refine Finset.sum_congr rfl fun a _ => ?_
  rw [← LibBlockSums.sum_fin_eq_sum_range 1000 (fun b => f (flat X (a.val * 1000 + b)) (flat Y (a.val * 1000 + b)))]
  refine Finset.sum_congr rfl fun b _ => ?_
  rw [flat_at X a b, flat_at Y a b]

/-- The column sum of block t at lane l. -/
def colsum (g : ℕ → EReal) (t l : ℕ) : EReal := ∑ r ∈ Finset.range 2000, g ((t * 2000 + r) * 1024 + l)

/-- What a half's accumulator holds at lane l after step n: the column sums of the half's blocks up to block n. -/
def accAfter (g : ℕ → EReal) (n l : ℕ) : EReal := ∑ k ∈ Finset.range (n % 16 + 1), colsum g (n / 16 * 16 + k) l

/-- A half's partial result: the lanes of its accumulator after its last block, added up. -/
def partialOf (g : ℕ → EReal) (p : ℕ) : EReal := ∑ l ∈ Finset.range 1024, accAfter g (p * 16 + 15) l

/-- At the first block of a half the accumulator's row is that block's column sums. -/
theorem accAfter_first (g : ℕ → EReal) (n l : ℕ) (h : n % 16 = 0) : accAfter g n l = colsum g n l := by
  unfold accAfter
  rw [h, Finset.sum_range_one, show n / 16 * 16 + 0 = n from by omega]

/-- At a later block it is the row before plus that block's column sums. -/
theorem accAfter_next (g : ℕ → EReal) (n l : ℕ) (h : n % 16 ≠ 0) :
    accAfter g n l = accAfter g (n - 1) l + colsum g n l := by
  unfold accAfter
  rw [show n % 16 + 1 = ((n - 1) % 16 + 1) + 1 from by omega, Finset.sum_range_succ,
    show (n - 1) / 16 = n / 16 from by omega, show n / 16 * 16 + ((n - 1) % 16 + 1) = n from by omega]

/-- The two partial results together are the sum over the whole sequence. -/
theorem partials_total (g : ℕ → EReal) :
    ∑ p ∈ Finset.range 2, partialOf g p = ∑ n ∈ Finset.range 65536000, g n := by
  have hp : ∀ p, partialOf g p = ∑ k ∈ Finset.range 16, ∑ r ∈ Finset.range 2000, ∑ l ∈ Finset.range 1024,
      g (((p * 16 + k) * 2000 + r) * 1024 + l) := fun p => by
    unfold partialOf accAfter colsum
    rw [Finset.sum_comm]
    refine Finset.sum_congr (by rw [show (p * 16 + 15) % 16 + 1 = 16 from by omega]) fun k _ => ?_
    rw [Finset.sum_comm, show (p * 16 + 15) / 16 * 16 = p * 16 from by omega]
  rw [show (65536000 : ℕ) = 2 * 16 * 2000 * 1024 from rfl, LibBlockSums.sum_range_mul (2 * 16 * 2000) 1024,
    LibBlockSums.sum_range_mul (2 * 16) 2000, LibBlockSums.sum_range_mul 2 16]
  exact Finset.sum_congr rfl fun p _ => hp p

end Cert.Corr

end
-- ==== Proof.Blocks.lean ====
/-
  The blocks the kernel is handed, as entries of the two argument arrays.

  Before the kernel runs each 65536 × 1000 argument is recast, first as one row of 65,536,000 entries and then as 64000
  rows of 1024 lanes; a recast keeps every entry at its position in row-major order, so entry (row, l) of the re-laid
  array is entry 1024·row + l of the argument read row after row. The grid's point t (point 16p + i being step i of
  half p) is handed block t of the re-laid array: rows 2000t … 2000t + 1999, all 1024 lanes. So entry (r, l) of the
  block at point t is entry 1024·(2000t + r) + l of the argument's sequence.
-/
import proofs.«111214_j24773371364064_2_alg».proof.Proof.Gen.KernelIdeal.Frame
import proofs.«111214_j24773371364064_2_alg».proof.Proof.Regroup
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Idealize.ShloMosaic.ValueIdx Cert.KernelIdeal Cert.KernelIdeal.Gen Cert.Corr

/-- An argument recast to 64000 × 1024, at (row, l): entry 1024·row + l of its sequence. -/
theorem relaid_at (X : S65536x1000.Idx → EReal) (row : Fin 64000) (l : Fin 1024) :
    shapeCast S64000x1024 (shapeCast S65536000 X shapeCasts_S65536x1000_S65536000) shapeCasts_S65536000_S64000x1024
      (ix2 row l) = flat X (row.val * 1024 + l.val) := by
  have hr := row.isLt
  have hl := l.isLt
  have hn : row.val * 1024 + l.val < 65536000 := by omega
  refine (shapeCast_apply _ shapeCasts_S65536000_S64000x1024 (ix2 row l)
    (ix1 (⟨row.val * 1024 + l.val, hn⟩ : Fin 65536000)) ?_).trans ?_
  · rw [Shape.rowMajor_val_one, Shape.rowMajor_val_two]
    rfl
  refine (shapeCast_apply X shapeCasts_S65536x1000_S65536000 (ix1 (⟨row.val * 1024 + l.val, hn⟩ : Fin 65536000))
    (ix2 (⟨(row.val * 1024 + l.val) / 1000 % 65536, Nat.mod_lt _ (by norm_num)⟩ : Fin 65536)
      (⟨(row.val * 1024 + l.val) % 1000, Nat.mod_lt _ (by norm_num)⟩ : Fin 1000)) ?_).trans ?_
  · rw [Shape.rowMajor_val_one, Shape.rowMajor_val_two]
    show (row.val * 1024 + l.val) / 1000 % 65536 * 1000 + (row.val * 1024 + l.val) % 1000 = row.val * 1024 + l.val
    omega
  rfl

variable (m : (ℓ : Loc nD τ sig) → Buf (Elt Ideal) ℓ)

/-- The first re-laid array, as the kernel's region finds it: the first argument recast twice. -/
theorem relaid0 (c : Dev nD) : (V m c main_v2 : S64000x1024.Idx → EReal)
    = shapeCast S64000x1024 (shapeCast S65536000 (m ((c : Thread nD τ).loc main_arg0) : S65536x1000.Idx → EReal)
        shapeCasts_S65536x1000_S65536000) shapeCasts_S65536000_S64000x1024 := by
  show StableHlo.after hostOps0 (fun b => m (c, b)) (Proc.devRef .tc main_v2) = _
  after_results
  rfl

/-- The second re-laid array: the second argument recast twice. -/
theorem relaid1 (c : Dev nD) : (V m c main_v3 : S64000x1024.Idx → EReal)
    = shapeCast S64000x1024 (shapeCast S65536000 (m ((c : Thread nD τ).loc main_arg1) : S65536x1000.Idx → EReal)
        shapeCasts_S65536x1000_S65536000) shapeCasts_S65536000_S64000x1024 := by
  show StableHlo.after hostOps0 (fun b => m (c, b)) (Proc.devRef .tc main_v3) = _
  after_results
  rfl

/-- Point t is handed block t: the block index along the rows is t, along the lanes 0, for both inputs. -/
theorem block_index : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- Entry (r, l) of the first input's block at point t. -/
theorem block0_at (c : Dev nD) (t : Fin cfg0.N) (r : Fin 2000) (l : Fin 1024) :
    (iblk m c 0 t : S2000x1024.Idx → EReal) (ix2 r l)
      = flat (m ((c : Thread nD τ).loc main_arg0)) ((t.val * 2000 + r.val) * 1024 + l.val) := by
  have ht : t.val < 32 := lt_of_lt_of_eq t.isLt (show cfg0.N = 32 from N_0)
  have hr := r.isLt
  have hi := (block_index t).1
  have hrow : t.val * 2000 + r.val < 64000 := by omega
  unfold iblk
  rw [View.read_apply]
  show V m c main_v2 _ = _
  rw [relaid0 m c]
  refine Eq.trans (congrArg _ ?_) (relaid_at _ (⟨t.val * 2000 + r.val, hrow⟩ : Fin 64000) l)
  funext a
  apply Fin.ext
  match a with
  | ⟨0, _⟩ => show win0_0.index t 0 * 2000 + 1 * r.val = t.val * 2000 + r.val; rw [hi.1]; omega
  | ⟨1, _⟩ => show win0_0.index t 1 * 1024 + 1 * l.val = l.val; rw [hi.2]; omega

/-- Entry (r, l) of the second input's block at point t. -/
theorem block1_at (c : Dev nD) (t : Fin cfg0.N) (r : Fin 2000) (l : Fin 1024) :
    (iblk m c 1 t : S2000x1024.Idx → EReal) (ix2 r l)
      = flat (m ((c : Thread nD τ).loc main_arg1)) ((t.val * 2000 + r.val) * 1024 + l.val) := by
  have ht : t.val < 32 := lt_of_lt_of_eq t.isLt (show cfg0.N = 32 from N_0)
  have hr := r.isLt
  have hi := (block_index t).2
  have hrow : t.val * 2000 + r.val < 64000 := by omega
  unfold iblk
  rw [View.read_apply]
  show V m c main_v3 _ = _
  rw [relaid1 m c]
  refine Eq.trans (congrArg _ ?_) (relaid_at _ (⟨t.val * 2000 + r.val, hrow⟩ : Fin 64000) l)
  funext a
  apply Fin.ext
  match a with
  | ⟨0, _⟩ => show win0_1.index t 0 * 2000 + 1 * r.val = t.val * 2000 + r.val; rw [hi.1]; omega
  | ⟨1, _⟩ => show win0_1.index t 1 * 1024 + 1 * l.val = l.val; rw [hi.2]; omega

end Cert.KernelIdeal.Blocks

end
-- ==== Proof.Accumulate.lean ====
/-
  What the accumulator and the output block hold after each grid point.

  Write g(n) for the loss term of the two arguments' entries at position n of their common sequence. By the block
  reading, the column sums the body adds at point t are those of block t of the sequence (`block_colsum`). So after a
  first point of a half the accumulator's lane l holds 0 + colsum t l; after any later point it holds what it held
  before plus that point's column sum (`acc_first_point`, `acc_later_point`); by induction on the point, after point n
  it holds the column sums of the half's blocks up to block n (`acc_eq`). At the last point of a half the output block's
  entry is the sum of those lanes: the half's partial result (`out_eq`).
-/
import proofs.«111214_j24773371364064_2_alg».proof.Proof.Pieces
import proofs.«111214_j24773371364064_2_alg».proof.Proof.Payload
import proofs.«111214_j24773371364064_2_alg».proof.Proof.Blocks

noncomputable section

open scoped BigOperators
open Idealize.ShloMosaic Idealize.ShloMosaic.TcCoe Idealize.SL.Sem

namespace Cert.KernelIdeal.Acc

open Idealize.ShloMosaic.ValueIdx Cert.KernelIdeal Cert.KernelIdeal.Gen Cert.Corr
open Cert.KernelIdeal.Pieces Cert.KernelIdeal.Payload Cert.KernelIdeal.Blocks

variable (m : (ℓ : Loc nD τ sig) → Buf (Elt Ideal) ℓ)

/-- The kernel's loss term at position n of the two arguments' sequence. -/
def seqTerm (c : Dev nD) (n : ℕ) : EReal :=
  termK (flat (m ((c : Thread nD τ).loc main_arg0)) n) (flat (m ((c : Thread nD τ).loc main_arg1)) n)

/-- The column of loss terms of the two blocks at point t, lane l, is the column sum of block t of the sequence. -/
theorem block_colsum (c : Dev nD) (t : Fin cfg0.N) (l : Fin 1024) :
    ∑ r : Fin 2000, termK ((iblk m c 0 t : S2000x1024.Idx → EReal) (ix2 r l)) ((iblk m c 1 t : S2000x1024.Idx → EReal) (ix2 r l))
      = colsum (seqTerm m c) t.val l.val := by
  unfold colsum
  rw [← LibBlockSums.sum_fin_eq_sum_range 2000 (fun r => seqTerm m c ((t.val * 2000 + r) * 1024 + l.val))]
  refine Finset.sum_congr rfl fun r _ => ?_
  rw [block0_at m c t r l, block1_at m c t r l]
  rfl

/-- One step of the body at point t turns a row `acc` into `acc` plus block t's column sums. -/
theorem step_at (c : Dev nD) (t : Fin cfg0.N) (acc : Vec Ideal S1x1024 .f32) (l : Fin 1024) :
    k0_pay2 (iblk m c 0 t) (iblk m c 1 t) acc (ix2 (0 : Fin 1) l)
      = acc (ix2 (0 : Fin 1) l) + colsum (seqTerm m c) t.val l.val :=
  (step_row (iblk m c 0 t) (iblk m c 1 t) acc l).trans (congrArg (acc (ix2 (0 : Fin 1) l) + ·) (block_colsum m c t l))

/-- After a first point of a half: the block's column sums. -/
theorem acc_first_point (c : Dev nD) (t : Fin cfg0.N) (h0 : t.val % 16 = 0) (l : Fin 1024) :
    ((outsAt0 m c t.val t.isLt).2 : S1x1024.Idx → EReal) (ix2 (0 : Fin 1) l) = colsum (seqTerm m c) t.val l.val := by
  have ht : t.val < 32 := lt_of_lt_of_eq t.isLt (show cfg0.N = 32 from N_0)
  have h1 : ¬t.val % 16 = 15 := by omega
  rw [outsAt0_A m c t h0 h1]
  dsimp only
  rw [acc_first]
  refine (step_at m c t _ l).trans ?_
  rw [zero_row, zero_add]

/-- After a later point: what the point before left, plus the block's column sums. -/
theorem acc_later_point (c : Dev nD) (t : Fin cfg0.N) (h0 : ¬t.val % 16 = 0) (l : Fin 1024) :
    ((outsAt0 m c t.val t.isLt).2 : S1x1024.Idx → EReal) (ix2 (0 : Fin 1) l)
      = ((outsAt0 m c (t.val - 1) (Nat.lt_of_le_of_lt (Nat.sub_le _ _) t.isLt)).2 : S1x1024.Idx → EReal) (ix2 (0 : Fin 1) l)
        + colsum (seqTerm m c) t.val l.val := by
  by_cases h1 : t.val % 16 = 15
  · rw [outsAt0_C m c t h0 h1]
    dsimp only
    rw [acc_last]
    exact step_at m c t _ l
  · rw [outsAt0_B m c t h0 h1]
    dsimp only
    rw [acc_middle]
    exact step_at m c t _ l

/-- THE ACCUMULATOR after point n, lane l: the column sums of the half's blocks up to block n. -/
theorem acc_eq (c : Dev nD) (n : ℕ) : ∀ (hn : n < cfg0.N) (l : Fin 1024),
    ((outsAt0 m c n hn).2 : S1x1024.Idx → EReal) (ix2 (0 : Fin 1) l) = accAfter (seqTerm m c) n l.val := by
  induction n with
  | zero =>
    intro hn l
    refine (acc_first_point m c ⟨0, hn⟩ rfl l).trans ?_
    exact (accAfter_first _ 0 _ rfl).symm
  | succ k ih =>
    intro hn l
    by_cases h0 : (k + 1) % 16 = 0
    · refine (acc_first_point m c ⟨k + 1, hn⟩ h0 l).trans ?_
      exact (accAfter_first _ (k + 1) _ h0).symm
    · refine (acc_later_point m c ⟨k + 1, hn⟩ h0 l).trans ?_
      rw [accAfter_next _ (k + 1) _ h0]
      exact congrArg (· + colsum (seqTerm m c) (k + 1) l.val) (ih (Nat.lt_of_succ_lt hn) l)

/-- THE OUTPUT BLOCK after the last point of a half: that half's partial result. -/
theorem out_eq (c : Dev nD) (t : Fin cfg0.N) (h1 : t.val % 16 = 15) (j : S1x1x1.Idx) :
    ((outsAt0 m c t.val t.isLt).1 : S1x1x1.Idx → EReal) j = partialOf (seqTerm m c) (t.val / 16) := by
  have h0 : ¬t.val % 16 = 0 := by omega
  have e1 : (outsAt0 m c t.val t.isLt).1 = k0_pay3 ((outsAt0 m c t.val t.isLt).2) := by
    rw [outsAt0_C m c t h0 h1]
    dsimp only
    rw [out_last, acc_last]
  rw [e1]
  refine (lane_total _ j).trans ?_
  unfold partialOf
  rw [← LibBlockSums.sum_fin_eq_sum_range 1024 (fun l => accAfter (seqTerm m c) (t.val / 16 * 16 + 15) l)]
  refine Finset.sum_congr rfl fun l _ => ?_
  rw [acc_eq m c t.val t.isLt l, show t.val / 16 * 16 + 15 = t.val from by omega]

end Cert.KernelIdeal.Acc

end
-- ==== Proof.Final.lean ====
/-
  The array of partial results, the scalar computed from it, and the kernel program's run.

  The output array has one entry per half. Half p's entry is written back once, after the half's last point, from the
  output block, whose entry is then the half's partial result; the two one-entry blocks tile the array, so after the
  run entry (p, 0, 0) is half p's partial result (`final`). The program then adds the array's entries from zero and
  divides by the f32 word of 65536000; the two partial results together are the sum of the loss term over the whole
  sequence, so the scalar is (0 + Σₙ g(n)) / 65536000 (`result_eq`).
-/
import proofs.«111214_j24773371364064_2_alg».proof.Proof.Accumulate
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Final

open Idealize.ShloMosaic.ValueIdx Cert.KernelIdeal Cert.KernelIdeal.Gen Cert.Corr Cert.KernelIdeal.Acc

variable (m : (ℓ : Loc nD τ sig) → Buf (Elt Ideal) ℓ) (ρ : Dev nD → PrngReg)

/-- The array of the two halves' partial results. -/
def partials (c : Dev nD) : S2x1x1.Idx → EReal := fun q => partialOf (seqTerm m c) (q 0).val

/-- The output's block index at point t: the half the point belongs to. -/
theorem out_index : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- What a half's last point writes back is that half's block of the partial results' array. -/
theorem flushed_eq (c : Dev nD) (t : Fin cfg0.N) (hf : (cfg0.win 2).flush t = true) :
    (dats m 0 c).flushed 2 t = ((cfg0.win 2).blk t).view.read (Elt Ideal) (partials m c) := by
  have h1 : t.val % 16 = 15 := (flush0_2 t).mp hf
  have hi := out_index t
  show (cfg0.win 2).cut (grid0.coords t) ((dats m 0 c).after 2 t) = _
  rw [after0_2]
  funext y
  rw [View.read_apply]
  refine (out_eq m c t h1 _).trans ?_
  unfold partials
  refine congrArg (partialOf (seqTerm m c)) ?_
  have hy : (y 0).val < 1 := (y 0).isLt
  show t.val / 16 = win0_2.index t 0 * 1 + 1 * (y 0).val
  rw [hi.1]
  omega

/-- An entry is in point t's block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v4).slice (win0_2.rect t)).set ↔ _
  rw [View.set_slice_whole, Rect.mem_set_unit]
  exact Iff.rfl

/-- After the run the output array holds the two partial results. -/
theorem final (c : Dev nD) : (dats m 0 c).arrAt 2 cfg0.N = partials m c :=
  (dats m 0 c).arrAt_eq_of_cover 2 (partials m c) (flushed_eq m c) fun i => by
    have hi0 : (i 0).val < 2 := (i 0).isLt
    have hi1 : (i 1).val < 1 := (i 1).isLt
    have hi2 : (i 2).val < 1 := (i 2).isLt
    have hN : cfg0.N = 32 := N_0
    obtain ⟨t, ht⟩ : ∃ t : Fin cfg0.N, t.val = (i 0).val * 16 + 15 := ⟨⟨(i 0).val * 16 + 15, by rw [hN]; omega⟩, rfl⟩
    obtain ⟨e0, e1, e2⟩ := out_index t
    refine ⟨t, (flush0_2 t).mpr (by omega), ?_⟩
    rw [mem_blk]
    intro a
    match a with
    | ⟨0, _⟩ =>
      show win0_2.index t 0 * 1 ≤ (i 0).val ∧ (i 0).val < win0_2.index t 0 * 1 + 1
      rw [e0]; omega
    | ⟨1, _⟩ =>
      show win0_2.index t 1 * 1 ≤ (i 1).val ∧ (i 1).val < win0_2.index t 1 * 1 + 1
      rw [e1]; omega
    | ⟨2, _⟩ =>
      show win0_2.index t 2 * 1 ≤ (i 2).val ∧ (i 2).val < win0_2.index t 2 * 1 + 1
      rw [e2]; omega

/-- The scalar the program computes from the partial results: their sum from zero, over the f32 word of 65536000. -/
def result (c : Dev nD) : S_.Idx → EReal :=
  Host.divf (F := Ideal) (Host.reduceAdd (F := Ideal) (partials m c) (constant (F := Ideal) S_ .f32 0x00000000#32)
    reducesTo_S2x1x1_S_d0_1_2 h_S_) (constant (F := Ideal) S_ .f32 0x4C7A0000#32)

/-- The operations after the kernel leave that scalar in the result buffer. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4)
      = partials m c := (Pipeline.withArrays_arr spec0 launch0.win.arr_inj c _ _ 2).trans (final m c)
  exact congrArg (fun P : S2x1x1.Idx → EReal => Host.divf (F := Ideal) (Host.reduceAdd (F := Ideal) P
    (constant (F := Ideal) S_ .f32 0x00000000#32) reducesTo_S2x1x1_S_d0_1_2 h_S_) (constant (F := Ideal) S_ .f32 0x4C7A0000#32)) e

/-- The kernel program's run: every weakly fair execution ends with the result buffer at that scalar and the arguments
    as they were. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The two halves of a 2 × 1 × 1 index set are its first coordinates. -/
def halves : S2x1x1.Idx ≃ Fin 2 where
  toFun q := q 0
  invFun p := ix3 p (0 : Fin 1) (0 : Fin 1)
  left_inv q := by
    funext a
    match a with
    | ⟨0, _⟩ => rfl
    | ⟨1, _⟩ => exact Subsingleton.elim (α := Fin 1) _ _
    | ⟨2, _⟩ => exact Subsingleton.elim (α := Fin 1) _ _
  right_inv _ := rfl

/-- The partial results add up to the sum of the loss term over the whole sequence. -/
theorem partials_sum (c : Dev nD) :
    ∑ q : S2x1x1.Idx, partials m c q = ∑ n ∈ Finset.range 65536000, seqTerm m c n := by
  rw [← Equiv.sum_comp halves.symm (partials m c)]
  show ∑ p : Fin 2, partialOf (seqTerm m c) p.val = _
  rw [LibBlockSums.sum_fin_eq_sum_range 2 (fun p => partialOf (seqTerm m c) p), partials_total]

/-- The host's sum of the 2 × 1 × 1 array from zero, at the result's one index. -/
theorem sum_from_zero (P : S2x1x1.Idx → EReal) (i : S_.Idx) :
    Host.reduceAdd (F := Ideal) P (constant (F := Ideal) S_ .f32 0x00000000#32) reducesTo_S2x1x1_S_d0_1_2 h_S_ i
      = Ideal.ofBits .f32 0x00000000#32 + ∑ q : S2x1x1.Idx, P q := by
  simp only [Host.reduceAdd, Ideal.hostReduceAdd_def]
  exact Ideal.hostReduceAdd_total reducesTo_S2x1x1_S_d0_1_2 (fun b => b.elim0) P _ i

/-- THE KERNEL PROGRAM'S SCALAR: zero plus the loss term summed over the whole sequence, over the word of 65536000. -/
theorem result_eq (c : Dev nD) : result m c = fun _ =>
    Ideal.div (Ideal.ofBits .f32 0x00000000#32 + ∑ n ∈ Finset.range 65536000, seqTerm m c n)
      (Ideal.ofBits .f32 0x4C7A0000#32) := by
  funext i
  show Ideal.div (Host.reduceAdd (F := Ideal) (partials m c) (constant (F := Ideal) S_ .f32 0x00000000#32)
    reducesTo_S2x1x1_S_d0_1_2 h_S_ i) (Ideal.ofBits .f32 0x4C7A0000#32) = _
  rw [sum_from_zero, partials_sum]

end Cert.KernelIdeal.Final

end
-- ==== Proof.RefValue.lean ====
/-
  The reference's scalar, read off its operations.

  Entry by entry the reference subtracts ½ from each argument, doubles, subtracts the two, squares, scales by the f32
  word of −0.001, exponentiates and subtracts from one: its term of the two entries (`term_at`). It then adds the terms
  of all 65536 × 1000 entries from zero and divides by the f32 word of 65536000; the sum over all (row, entry) pairs
  is the sum over the sequence of entries read row after row (`result_eq`).
-/
import proofs.«111214_j24773371364064_2_alg».proof.Proof.Gen.ReferenceIdeal.Read
import proofs.«111214_j24773371364064_2_alg».proof.Proof.Scalars
import proofs.«111214_j24773371364064_2_alg».proof.Proof.Regroup

noncomputable section

open scoped BigOperators
open Idealize.ShloMosaic

namespace Cert.ReferenceIdeal.RefValue

open Cert.ReferenceIdeal Cert.ReferenceIdeal.Gen Cert.ReferenceIdeal.Read Cert.Corr

/-- The reference's entrywise stage at an entry: its term of the two arguments' entries there. -/
theorem term_at (X Y : S65536x1000.Idx → EReal) (j : S65536x1000.Idx) :
    val_main_v14 (F := Ideal) X Y j = termR (X j) (Y j) := by
  rw [val_main_v14_apply, val_main_v13_apply, val_main_cst_4_apply, val_main_v12_apply, val_main_v11_apply,
    val_main_v10_apply, val_main_cst_3_apply, val_main_v9_apply, val_main_v8_apply, val_main_v7_apply,
    val_main_v5_apply, val_main_v4_apply, val_main_cst_1_apply, val_main_v6_apply, val_main_cst_2_apply,
    val_main_v3_apply, val_main_v1_apply, val_main_v0_apply, val_main_cst_apply, val_main_v2_apply,
    val_main_cst_0_apply]
  rfl

/-- THE REFERENCE'S SCALAR: zero plus its term summed over the whole sequence, over the word of 65536000. -/
theorem result_eq (X Y : S65536x1000.Idx → EReal) : val_main_v16 (F := Ideal) X Y = fun _ =>
    Ideal.div (Ideal.ofBits .f32 0x00000000#32 + ∑ n ∈ Finset.range 65536000, termR (flat X n) (flat Y n))
      (Ideal.ofBits .f32 0x4C7A0000#32) := by
  funext i
  rw [val_main_v16_apply, val_main_v15_apply, val_main_cst_5_apply, val_main_cst_6_apply]
  have e : ∑ j : S65536x1000.Idx, val_main_v14 (F := Ideal) X Y j
      = ∑ n ∈ Finset.range 65536000, termR (flat X n) (flat Y n) := by
    rw [← sum_all_eq_flat X Y termR]
    exact Finset.sum_congr rfl fun j _ => term_at X Y j
  rw [e]
  rfl

end Cert.ReferenceIdeal.RefValue

end
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.Finite.lean ====
/-
  The precondition read at one entry: every entry of the two arguments is a real number.

  The precondition is the conjunction of two "all entries satisfy |x| < +∞" tests, one per argument, each a reduction by
  `and` of the entrywise comparison of |x| = max x (−x) with the f32 word of +∞. A conjunction that is true has both
  conjuncts true; a reduction by `and` over every axis that is true had a true bit at every entry; and an extended real
  whose absolute value is below +∞ is neither +∞ nor −∞, so it is a real.
-/
import proofs.«111214_j24773371364064_2_alg».proof.Pre_finite_inputs
import proofs.«111214_j24773371364064_2_alg».proof.Proof.LibSingletonSoftmax
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- Under the precondition every entry of both arguments is a real number. -/
theorem entries_real [Cert.Pre_finite_inputs.Facts] (X Y : FVec Ideal S65536x1000 .f32)
    (h : Cert.Pre_finite_inputs.fn (F := Ideal) X Y = fun _ => 1#1) :
    (∀ j : S65536x1000.Idx, ∃ r : ℝ, X j = (r : EReal)) ∧ (∀ j : S65536x1000.Idx, ∃ r : ℝ, Y j = (r : EReal)) := by
  have h0 := congrFun h ValueIdx.ix0
  dsimp only [Cert.Pre_finite_inputs.fn] at h0
  obtain ⟨hx, hy⟩ := IntOp.andi_eq_one.1 h0
  refine ⟨fun j => ?_, fun j => ?_⟩
  · exact SingletonSoftmax.real_of_abs_lt_top (X j) (Host.reduce_andi_all _ _ _ _ _ hx j)
  · exact SingletonSoftmax.real_of_abs_lt_top (Y j) (Host.reduce_andi_all _ _ _ _ _ hy j)

end Cert.Finite

end
-- ==== Proof.lean ====
/-
  A correntropy-style loss over two 65536 × 1000 arrays: the mean over all entries of 1 − exp(−σ · d²), where d is the
  difference of the two arrays' entries after each is rescaled from [0, 1] to [−1, 1] and σ is one over the row length.

  The reference computes it as written: d = 2(x − ½) − 2(y − ½), the scale the f32 word of −0.001, the terms of all
  entries added from zero, the sum divided by the f32 word of 65536000. The kernel uses d² = 4(x − y)²: its scale is the
  f32 word of −0.004, which is exactly four times the reference's word, and it squares x − y directly. It reads the two
  arrays as one sequence of 65,536,000 entries re-laid as 64000 rows of 1024 lanes, cut into 32 blocks of 2000 rows;
  each of two halves walks its 16 blocks, keeping a row of 1024 running column sums, and after its last block adds the
  row's lanes into one partial result; the program then adds the two partial results from zero and divides by the
  same word of 65536000.

  On the extended reals the two scalars are equal whenever every entry is a real number: entry by entry the two terms
  are then equal (2(x − ½) − 2(y − ½) = 2(x − y) needs real x and y), and the kernel's sums, in whatever grouping, are
  the sum over all entries because addition of extended reals is commutative and associative. The precondition says
  exactly that every entry is real. The arguments are never written, by either program; no operation of the kernel was
  rewritten for the ideal reading.
-/
import proofs.«111214_j24773371364064_2_alg».proof.Defs
import proofs.«111214_j24773371364064_2_alg».proof.Proof.Gen.Kernel
import proofs.«111214_j24773371364064_2_alg».proof.Proof.Gen.Kernel.Frame
import proofs.«111214_j24773371364064_2_alg».proof.Proof.Gen.KernelIdeal
import proofs.«111214_j24773371364064_2_alg».proof.Proof.Gen.KernelIdeal.Frame
import proofs.«111214_j24773371364064_2_alg».proof.Proof.Gen.ReferenceIdeal
import proofs.«111214_j24773371364064_2_alg».proof.Proof.Gen.Pre_finite_inputs
import proofs.«111214_j24773371364064_2_alg».proof.Proof.Gen.ReferenceIdeal.Run
import proofs.«111214_j24773371364064_2_alg».proof.Proof.Gen.ReferenceIdeal.Read
import proofs.«111214_j24773371364064_2_alg».proof.Proof.Final
import proofs.«111214_j24773371364064_2_alg».proof.Proof.RefValue
import proofs.«111214_j24773371364064_2_alg».proof.Proof.Finite
import Idealize.ShloMosaic.Adequacy
import Idealize.ShloMosaic.Init

noncomputable section

namespace Cert.Proof

open Idealize.ShloMosaic Idealize.ShloMosaic.TcCoe Idealize.SL.Sem

/-- The kernel's program, as printed: it runs and leaves its arguments unchanged. -/
theorem frame_kernel : Cert.frame_Kernel := fun m ρ _ => Cert.Kernel.Gen.frame m ρ

/-- The same read on the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- On the extended reals, from arguments that agree and are real at every entry, the two programs end with the same
    scalar: zero plus the sum over the sequence of entries of one and the same term, over the same word. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]
  show _ = Cert.KernelIdeal.Final.result m c
  rw [Cert.KernelIdeal.Final.result_eq]
  obtain ⟨hx, hy⟩ := Cert.Finite.entries_real _ _ (hpre c)
  funext _
  refine congrArg (fun s => Ideal.div (Ideal.ofBits .f32 0x00000000#32 + s) (Ideal.ofBits .f32 0x4C7A0000#32)) ?_
  refine Finset.sum_congr rfl fun n _ => ?_
  unfold Cert.KernelIdeal.Acc.seqTerm Cert.Corr.flat
  obtain ⟨a, ha⟩ := hx (ValueIdx.ix2 (⟨n / 1000 % 65536, Nat.mod_lt _ (by norm_num)⟩ : Fin 65536)
    (⟨n % 1000, Nat.mod_lt _ (by norm_num)⟩ : Fin 1000))
  obtain ⟨b, hb⟩ := hy (ValueIdx.ix2 (⟨n / 1000 % 65536, Nat.mod_lt _ (by norm_num)⟩ : Fin 65536)
    (⟨n % 1000, Nat.mod_lt _ (by norm_num)⟩ : Fin 1000))
  rw [ha, hb]
  exact (Cert.Corr.termK_eq_termR a b).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
